-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S1000x3x224x224 : Shape := ⟨4, ![1000, 3, 224, 224]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S1000x3x224x224 : S_.BroadcastsInDim S1000x3x224x224 (![] : Fin 0 → Fin S1000x3x224x224.rank)
  reducesTo_S1000x3x224x224_S_d0_1_2_3 : S1000x3x224x224.ReducesTo [0, 1, 2, 3] S_

variable [Facts]

def fn {F : FTy → Type} [FloatOps F] (main_arg0 : FVec F S256x3x224x224 .f32) (main_arg1 : FVec F S1000x3x224x224 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S1000x3x224x224 .f32 := Host.absf main_arg1
  let main_cst_0 : FVec F S_ .f32 := constant S_ .f32 0x7F800000#32
  let main_v5 : FVec F S1000x3x224x224 .f32 := broadcastInDim S1000x3x224x224 ![] bcast_S_S1000x3x224x224 main_cst_0
  let main_v6 : IVec S1000x3x224x224 1 := cmpf .olt main_v4 main_v5
  let main_c_1 : IVec S_ 1 := constantI S_ 1 1#1
  let main_v7 : IVec S_ 1 := (fun x v => Host.reduce IntOp.andi x v reducesTo_S1000x3x224x224_S_d0_1_2_3 h_S_) main_v6 main_c_1
  let main_v8 : IVec S_ 1 := andi main_v3 main_v7
  main_v8
-- ==== Kernel.lean ====
abbrev S256x3x224x224 : Shape := ⟨4, ![256, 3, 224, 224]⟩
abbrev S1000x3x224x224 : Shape := ⟨4, ![1000, 3, 224, 224]⟩
abbrev S256x150528 : Shape := ⟨2, ![256, 150528]⟩
abbrev S1000x150528 : Shape := ⟨2, ![1000, 150528]⟩
abbrev S256x1000 : Shape := ⟨2, ![256, 1000]⟩
abbrev S256x2688 : Shape := ⟨2, ![256, 2688]⟩
abbrev S1000x2688 : Shape := ⟨2, ![1000, 2688]⟩

abbrev nBuf : Space → Nat
  | .hbm => 5
  | .vmem => 5
  | .smem => 0
  | _ => 0

abbrev bufTy : (tb : Table) → Fin (tcTables nBuf tb) → BufTy
  | .hbm, ⟨0, _⟩ => ⟨S256x3x224x224, .f32⟩
  | .hbm, ⟨1, _⟩ => ⟨S1000x3x224x224, .f32⟩
  | .hbm, ⟨2, _⟩ => ⟨S256x150528, .f32⟩
  | .hbm, ⟨3, _⟩ => ⟨S1000x150528, .f32⟩
  | .hbm, ⟨4, _⟩ => ⟨S256x1000, .f32⟩
  | .local _ .vmem, ⟨0, _⟩ => ⟨S256x2688, .f32⟩
  | .local _ .vmem, ⟨1, _⟩ => ⟨S256x2688, .f32⟩
  | .local _ .vmem, ⟨2, _⟩ => ⟨S1000x2688, .f32⟩
  | .local _ .vmem, ⟨3, _⟩ => ⟨S1000x2688, .f32⟩
  | .local _ .vmem, ⟨4, _⟩ => ⟨S256x1000, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S256x3x224x224_S256x150528 : S256x3x224x224.ShapeCasts S256x150528
  shapeCasts_S1000x3x224x224_S1000x150528 : S1000x3x224x224.ShapeCasts S1000x150528
  inb_S256x1000_S256x1000_0_0 : ∀ a, (![0, 0] : Fin 2 → Nat) a + S256x1000.size a ≤ S256x1000.size a
  h_S256x1000 : 0 < S256x1000.numel
  inb_S256x2688_S256x2688_0_0 : ∀ a, (![0, 0] : Fin 2 → Nat) a + S256x2688.size a ≤ S256x2688.size a
  h_S256x2688 : 0 < S256x2688.numel
  shapeCasts_S256x2688_S256x2688 : S256x2688.ShapeCasts S256x2688
  bitsLt_bf16_f32 : FTy.bits .bf16 < FTy.bits .f32
  inb_S1000x2688_S1000x2688_0_0 : ∀ a, (![0, 0] : Fin 2 → Nat) a + S1000x2688.size a ≤ S1000x2688.size a
  h_S1000x2688 : 0 < S1000x2688.numel
  shapeCasts_S1000x2688_S1000x2688 : S1000x2688.ShapeCasts S1000x2688
  shapeCasts_S256x1000_S256x1000 : S256x1000.ShapeCasts S256x1000
  dot_S256x2688_S1000x2688_S256x1000_1_1_0_0_n_n_wf : DotDims.WF S256x2688 S1000x2688 S256x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2688.size a ≤ S256x150528.size a
  hwx0_0 : ∀ i : grid0.Coords, EltTy.bits .f32 = 32 ∨ (Rect.block (s := S256x150528) S256x2688.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2688.size a ≤ S1000x150528.size a
  hwx0_1 : ∀ i : grid0.Coords, EltTy.bits .f32 = 32 ∨ (Rect.block (s := S1000x150528) S1000x2688.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1000.size a ≤ S256x1000.size a
  hwx0_2 : ∀ i : grid0.Coords, EltTy.bits .f32 = 32 ∨ (Rect.block (s := S256x1000) S256x1000.size (cc0_transform_2 i) (hinb0_2 i)).WholeWords (EltTy.packing .f32)

variable [Facts₀]

def dot_S256x2688_S1000x2688_S256x1000_1_1_0_0_n_n : DotDims S256x2688 S1000x2688 S256x1000 where
  lhsContracting := [1]
  rhsContracting := [1]
  lhsNonContracting := [0]
  rhsNonContracting := [0]
  lhsBatch := []
  rhsBatch := []
  wf := dot_S256x2688_S1000x2688_S256x1000_1_1_0_0_n_n_wf

abbrev win0_0 : Pipeline.Window sig grid0 :=
  Pipeline.Window.ofSpec (Memref.whole main_v0) S256x2688.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x2688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S1000x3x224x224 : Shape := ⟨4, ![1000, 3, 224, 224]⟩
abbrev S256x150528 : Shape := ⟨2, ![256, 150528]⟩
abbrev S1000x150528 : Shape := ⟨2, ![1000, 150528]⟩
abbrev S256x1000 : Shape := ⟨2, ![256, 1000]⟩

abbrev nBuf : Space → Nat
  | .hbm => 5
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S1000x3x224x224, .f32⟩
  | .hbm, ⟨2, _⟩ => ⟨S256x150528, .f32⟩
  | .hbm, ⟨3, _⟩ => ⟨S1000x150528, .f32⟩
  | .hbm, ⟨4, _⟩ => ⟨S256x1000, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S256x3x224x224_S256x150528 : S256x3x224x224.ShapeCasts S256x150528
  shapeCasts_S1000x3x224x224_S1000x150528 : S1000x3x224x224.ShapeCasts S1000x150528
  dot_S256x150528_S1000x150528_S256x1000_1_1_0_0_n_n_wf : DotDims.WF S256x150528 S1000x150528 S256x1000 [1] [1] [0] [0] [] []

variable [Facts₀]

def dot_S256x150528_S1000x150528_S256x1000_1_1_0_0_n_n : DotDims S256x150528 S1000x150528 S256x1000 where
  lhsContracting := [1]
  rhsContracting := [1]
  lhsNonContracting := [0]
  rhsNonContracting := [0]
  lhsBatch := []
  rhsBatch := []
  wf := dot_S256x150528_S1000x150528_S256x1000_1_1_0_0_n_n_wf

class Facts : Prop extends Facts₀ where

variable [Facts]
-- ==== Proof.PointProduct.lean ====
/-
  One grid point's arithmetic, read at an index of the extended reals.

  At a grid point the body holds a block `a` of 256 rows by 2688 columns of the first operand, a block `b` of
  1000 rows by 2688 columns of the second, and the output block `acc` left by the point before. It stores
  `acc + a · bᵀ`: the change of float format on `a` and `b` is the identity on the extended reals, the product
  is taken into a zero accumulator, and the casts between equal shapes do nothing. So entry (p, q) of what is stored
  is `acc (p, q) + Σ_{k < 2688} a (p, k) · b (q, k)`, and the reset value stored first at the first point is zero.
-/
import proofs.«141762_j59270548685016_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PointProduct

open Cert.KernelIdeal Cert.KernelIdeal.Gen Idealize.ShloMosaic Idealize.ShloMosaic.TcCoe Idealize.SL.Sem
open Idealize.ShloMosaic.ValueIdx

/-- The product's dimension numbers: rows of the left block against rows of the right block, contracting the
    column axis of both. -/
abbrev rowsByRows : DotDims S256x2688 S1000x2688 S256x1000 := dot_S256x2688_S1000x2688_S256x1000_1_1_0_0_n_n

/-- The left operand's row is the output's row. -/
theorem left_row (i : S256x1000.Idx) (u : rowsByRows.contr.Idx) : (rowsByRows.lhsIdx i u 0).val = (i 0).val := by
  unfold DotDims.lhsIdx
  rw [dif_neg (show ¬(0 : Fin S256x2688.rank) ∈ rowsByRows.lhsBatch by decide),
    dif_pos (show (0 : Fin S256x2688.rank) ∈ rowsByRows.lhsNonContracting by decide)]
  rfl

/-- The left operand's column is the contraction index. -/
theorem left_col (i : S256x1000.Idx) (u : rowsByRows.contr.Idx) :
    (rowsByRows.lhsIdx i u 1).val = (u ⟨0, by decide⟩).val :=
  rowsByRows.lhsIdx_val_of_single rfl i u

/-- The right operand's row is the output's column. -/
theorem right_row (i : S256x1000.Idx) (u : rowsByRows.contr.Idx) : (rowsByRows.rhsIdx i u 0).val = (i 1).val := by
  unfold DotDims.rhsIdx
  rw [dif_neg (show ¬(0 : Fin S1000x2688.rank) ∈ rowsByRows.rhsBatch by decide),
    dif_pos (show (0 : Fin S1000x2688.rank) ∈ rowsByRows.rhsNonContracting by decide)]
  rfl

/-- The right operand's column is the contraction index. -/
theorem right_col (i : S256x1000.Idx) (u : rowsByRows.contr.Idx) :
    (rowsByRows.rhsIdx i u 1).val = (u ⟨0, by decide⟩).val :=
  rowsByRows.rhsIdx_val_of_single rfl i u

/-- The product of a block of the first operand with the transpose of a block of the second, into zero, at entry
    (p, q): the inner product of row `p` of the one with row `q` of the other. -/
theorem product_apply (a : FVec Ideal S256x2688 .bf16) (b : FVec Ideal S1000x2688 .bf16) (p : Fin 256) (q : Fin 1000) :
    FloatOps.matmul rowsByRows none a b (constant S256x1000 .f32 0x00000000#32) (ix2 p q)
      = ∑ k : Fin 2688, a (ix2 p k) * b (ix2 q k) := by
  rw [Ideal.matmul_constant_zero_apply, ← Equiv.sum_comp (contrEquiv1 rowsByRows 2688 rfl rfl).symm]
  refine Finset.sum_congr rfl fun k _ => ?_
  have hk := contrEquiv1_symm_val rowsByRows 2688 rfl rfl k
  have el : rowsByRows.lhsIdx (ix2 p q) ((contrEquiv1 rowsByRows 2688 rfl rfl).symm k) = ix2 p k :=
    funext fun d => Fin.ext (by
      match d with
      | ⟨0, _⟩ => exact left_row _ _
      | ⟨1, _⟩ => exact (left_col _ _).trans hk)
  have er : rowsByRows.rhsIdx (ix2 p q) ((contrEquiv1 rowsByRows 2688 rfl rfl).symm k) = ix2 q k :=
    funext fun d => Fin.ext (by
      match d with
      | ⟨0, _⟩ => exact right_row _ _
      | ⟨1, _⟩ => exact (right_col _ _).trans hk)
  rw [el, er]

/-- What a point stores, at entry (p, q): what the point before left there plus the inner product of row `p` of the
    first block with row `q` of the second. -/
theorem step_apply (a : Vec Ideal S256x2688 .f32) (b : Vec Ideal S1000x2688 .f32) (acc : Vec Ideal S256x1000 .f32)
    (p : Fin 256) (q : Fin 1000) :
    k0_pay2 (F := Ideal) a b acc (ix2 p q) = acc (ix2 p q) + ∑ k : Fin 2688, a (ix2 p k) * b (ix2 q k) := by
  unfold k0_pay2
  simp only [shapeCast_self]
  exact congrArg (acc (ix2 p q) + ·) (product_apply a b p q)

/-- The reset value is zero everywhere. -/
theorem reset_apply (j : S256x1000.Idx) : k0_pay1 (F := Ideal) j = 0 := by
  unfold k0_pay1
  exact Ideal.ofBits_zero_f32

end Cert.KernelIdeal.PointProduct

end
-- ==== Proof.BlockedSum.lean ====
/-
  The law that joins the two programs: an inner product over 150528 = 56 · 2688 terms is the sum, over 56
  consecutive blocks, of the inner products over each block's 2688 terms.

  Only commutativity and associativity of addition are used, so the law holds in any commutative additive monoid; on
  the extended reals it needs no finiteness of the entries. The terms are indexed by natural numbers (zero past the
  rows' end), so that a block's terms are `n · 2688 + k` with no bound to carry.
-/
import Idealize.ShloMosaic.Lib.ValueIdx
import Idealize.ShloMosaic.PureOps.Ideal

noncomputable section

namespace Cert.BlockedSum

open Idealize.ShloMosaic Idealize.ShloMosaic.ValueIdx

/-- A sum over `A · B` consecutive naturals, cut into `A` runs of `B`. -/
theorem sum_range_mul {β : Type*} [AddCommMonoid β] (f : ℕ → β) (B : ℕ) :
    ∀ A : ℕ, ∑ d ∈ Finset.range (A * B), f d = ∑ s ∈ Finset.range A, ∑ k ∈ Finset.range B, f (s * B + k)
  | 0 => by simp
  | A + 1 => by
    rw [Nat.succ_mul, Finset.sum_range_add, Finset.sum_range_succ, sum_range_mul f B A]

variable (X : (⟨2, ![256, 150528]⟩ : Shape).Idx → EReal) (C : (⟨2, ![1000, 150528]⟩ : Shape).Idx → EReal)

/-- Term `d` of the inner product of row `p` of `X` with row `q` of `C`; zero past the rows' end. -/
def term (p : Fin 256) (q : Fin 1000) (d : ℕ) : EReal :=
  if h : d < 150528 then X (ix2 p ⟨d, h⟩) * C (ix2 q ⟨d, h⟩) else 0

/-- The inner product over block `n`: columns `n · 2688 … n · 2688 + 2687`. -/
def blockSum (p : Fin 256) (q : Fin 1000) (n : ℕ) : EReal :=
  ∑ k ∈ Finset.range 2688, term X C p q (n * 2688 + k)

/-- The whole inner product is the sum of its terms over the naturals below 150528. -/
theorem inner_eq_sum_term (p : Fin 256) (q : Fin 1000) :
    ∑ k : Fin 150528, X (ix2 p k) * C (ix2 q k) = ∑ d ∈ Finset.range 150528, term X C p q d := by
  rw [Finset.sum_range]
  refine Finset.sum_congr rfl fun k _ => ?_
  unfold term
  rw [dif_pos k.isLt]

/-- THE LAW: the whole inner product is zero plus the 56 block sums, in order. -/
theorem inner_eq_blocks (p : Fin 256) (q : Fin 1000) :
    ∑ k : Fin 150528, X (ix2 p k) * C (ix2 q k) = 0 + ∑ s ∈ Finset.range (55 + 1), blockSum X C p q (0 + s) := by
  rw [inner_eq_sum_term, zero_add, show (150528 : ℕ) = 56 * 2688 from rfl, sum_range_mul]
  refine Finset.sum_congr rfl fun s _ => ?_
  rw [Nat.zero_add]
  rfl

/-- A block sum from the blocks' own entries: when `a` and `b` hold columns `n · 2688 …` of row `p` of `X` and
    of row `q` of `C`, their inner product over 2688 columns is block `n`'s sum. -/
theorem blockSum_of_blocks (p : Fin 256) (q : Fin 1000) (n : ℕ) (hn : n < 56)
    (a : (⟨2, ![256, 2688]⟩ : Shape).Idx → EReal) (b : (⟨2, ![1000, 2688]⟩ : Shape).Idx → EReal)
    (ha : ∀ k : Fin 2688, a (ix2 p k) = X (ix2 p ⟨n * 2688 + k.val, by have := k.isLt; omega⟩))
    (hb : ∀ k : Fin 2688, b (ix2 q k) = C (ix2 q ⟨n * 2688 + k.val, by have := k.isLt; omega⟩)) :
    ∑ k : Fin 2688, a (ix2 p k) * b (ix2 q k) = blockSum X C p q n := by
  unfold blockSum
  rw [Finset.sum_range]
  refine Finset.sum_congr rfl fun k _ => ?_
  unfold term
  rw [dif_pos (by have := k.isLt; omega), ha, hb]

end Cert.BlockedSum

end
-- ==== Proof.BlockRead.lean ====
/-
  What the region reads: each operand array as the region finds it, and each grid point's block of it.

  Before the region the program reshapes each argument from [n, 3, 224, 224] to [n, 150528]; the region's two input
  windows are those reshaped arrays. At grid point `t` the first window's block is all 256 rows and columns
  `t · 2688 … t · 2688 + 2687`, and the second window's block all 1000 rows and the same columns: entry (p, k) of a
  block is entry (p, t · 2688 + k) of its array.
-/
import proofs.«141762_j59270548685016_2_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.BlockRead

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The two input windows' block indices at every grid point: row block 0, column block `t`. -/
theorem block_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- A column of a point's block is a column of the array. -/
theorem col_lt (t : Fin cfg0.N) (k : Fin 2688) : t.val * 2688 + k.val < 150528 := by
  have h1 := t.isLt
  have h2 : cfg0.N = 56 := N_0
  have h3 := k.isLt
  omega

/-- Entry (p, k) of the first operand's block at point `t` is entry (p, t · 2688 + k) of the first operand. -/
theorem left_block_apply (c : Dev nD) (t : Fin cfg0.N) (p : Fin 256) (k : Fin 2688) :
    iblk m c 0 t (ix2 p k) = V m c main_v0 (ix2 p ⟨t.val * 2688 + k.val, col_lt t k⟩) := by
  obtain ⟨e0, e1, -, -⟩ := block_index t
  show V m c main_v0 (((cfg0.win 0).blk t).view.emb (ix2 p k)) = V m c main_v0 _
  refine congrArg _ (funext fun d => Fin.ext ?_)
  match d with
  | ⟨0, _⟩ => show win0_0.index t (0 : Fin 2) * 256 + 1 * p.val = p.val; omega
  | ⟨1, _⟩ => show win0_0.index t (1 : Fin 2) * 2688 + 1 * k.val = t.val * 2688 + k.val; omega

/-- Entry (q, k) of the second operand's block at point `t` is entry (q, t · 2688 + k) of the second operand. -/
theorem right_block_apply (c : Dev nD) (t : Fin cfg0.N) (q : Fin 1000) (k : Fin 2688) :
    iblk m c 1 t (ix2 q k) = V m c main_v1 (ix2 q ⟨t.val * 2688 + k.val, col_lt t k⟩) := by
  obtain ⟨-, -, e0, e1⟩ := block_index t
  show V m c main_v1 (((cfg0.win 1).blk t).view.emb (ix2 q k)) = V m c main_v1 _
  refine congrArg _ (funext fun d => Fin.ext ?_)
  match d with
  | ⟨0, _⟩ => show win0_1.index t (0 : Fin 2) * 1000 + 1 * q.val = q.val; omega
  | ⟨1, _⟩ => show win0_1.index t (1 : Fin 2) * 2688 + 1 * k.val = t.val * 2688 + k.val; omega

/-- The first operand as the region finds it: the first argument reshaped to 256 rows. -/
theorem left_array (c : Dev nD) :
    (V m c main_v0 : S256x150528.Idx → EReal)
      = shapeCast _ (m ((c : Thread nD τ).loc main_arg0)) shapeCasts_S256x3x224x224_S256x150528 := by
  dsimp only [Gen.V, Gen.hostOps0]
  after_results
  rfl

/-- The second operand as the region finds it: the second argument reshaped to 1000 rows. -/
theorem right_array (c : Dev nD) :
    (V m c main_v1 : S1000x150528.Idx → EReal)
      = shapeCast _ (m ((c : Thread nD τ).loc main_arg1)) shapeCasts_S1000x3x224x224_S1000x150528 := by
  dsimp only [Gen.V, Gen.hostOps0]
  after_results
  rfl

end Cert.KernelIdeal.BlockRead

end
-- ==== Proof.KernelSum.lean ====
/-
  What the kernel leaves in its output array: at entry (p, q), the whole inner product of row `p` of the first
  operand with row `q` of the second.

  The output block stays in place over all 56 grid points. The first point resets it to zero and adds its block's
  product; each later point adds its own. So after the last point entry (p, q) holds zero plus the 56 block sums in
  order, which is the inner product over all 150528 columns by the blocked-sum law.
-/
import proofs.«141762_j59270548685016_2_alg».proof.Proof.PointProduct
import proofs.«141762_j59270548685016_2_alg».proof.Proof.BlockedSum
import proofs.«141762_j59270548685016_2_alg».proof.Proof.BlockRead

noncomputable section

namespace Cert.KernelIdeal.KernelSum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first operand as the region finds it, as a function of (row, column) into the extended reals. -/
def left (c : Dev nD) : S256x150528.Idx → EReal := V m c main_v0

/-- The second operand as the region finds it, as a function of (row, column) into the extended reals. -/
def right (c : Dev nD) : S1000x150528.Idx → EReal := V m c main_v1

/-- The first operand is the first argument reshaped to 256 rows. -/
theorem left_eq (c : Dev nD) :
    left m c = shapeCast _ (m ((c : Thread nD τ).loc main_arg0)) shapeCasts_S256x3x224x224_S256x150528 :=
  BlockRead.left_array m c

/-- The second operand is the second argument reshaped to 1000 rows. -/
theorem right_eq (c : Dev nD) :
    right m c = shapeCast _ (m ((c : Thread nD τ).loc main_arg1)) shapeCasts_S1000x3x224x224_S1000x150528 :=
  BlockRead.right_array m c

/-- What point `n` adds at an output entry: block `n`'s sum for the entry's row and column. -/
def addend (c : Dev nD) (n : ℕ) (i : S256x1000.Idx) : EReal :=
  Cert.BlockedSum.blockSum (left m c) (right m c) (i 0) (i 1) n

/-- Point `n` stores, at entry (p, q), what was there plus block `n`'s sum. -/
theorem point_step (c : Dev nD) (n : ℕ) (h : n < cfg0.N) (acc : Vec Ideal S256x1000 .f32) (p : Fin 256) (q : Fin 1000) :
    k0_pay2 (F := Ideal) (iblk m c 0 ⟨n, h⟩) (iblk m c 1 ⟨n, h⟩) acc (ix2 p q)
      = acc (ix2 p q) + Cert.BlockedSum.blockSum (left m c) (right m c) p q n := by
  refine (PointProduct.step_apply (iblk m c 0 ⟨n, h⟩) (iblk m c 1 ⟨n, h⟩) acc p q).trans ?_
  refine congrArg (acc (ix2 p q) + ·) ?_
  exact Cert.BlockedSum.blockSum_of_blocks (left m c) (right m c) p q n (lt_of_lt_of_eq h N_0)
    (iblk m c 0 ⟨n, h⟩) (iblk m c 1 ⟨n, h⟩)
    (fun k => BlockRead.left_block_apply m c ⟨n, h⟩ p k) (fun k => BlockRead.right_block_apply m c ⟨n, h⟩ q k)

/-- After the last point the output block holds, at entry (p, q), zero plus the 56 block sums. -/
theorem fold_apply (c : Dev nD) (h : 0 + 55 < cfg0.N) (p : Fin 256) (q : Fin 1000) :
    Pipeline.accAt (Value.reset2 m c) (Value.step2 m c) 0 55 h (ix2 p q)
      = 0 + ∑ s ∈ Finset.range (55 + 1), Cert.BlockedSum.blockSum (left m c) (right m c) p q (0 + s) :=
  Pipeline.accAt_add_apply (ι := S256x1000.Idx) (β := EReal) (Value.reset2 m c) (Value.step2 m c) (fun _ => 0) (addend m c) 0 55
    (fun h0 i => by
      obtain ⟨p, q, rfl⟩ : ∃ (p : Fin 256) (q : Fin 1000), i = ix2 p q := ⟨i 0, i 1, eq_ix2 i⟩
      unfold Value.reset2
      refine (point_step m c 0 h0 _ p q).trans ?_
      rw [PointProduct.reset_apply]
      rfl)
    (fun n hn acc i _ _ => by
      obtain ⟨p, q, rfl⟩ : ∃ (p : Fin 256) (q : Fin 1000), i = ix2 p q := ⟨i 0, i 1, eq_ix2 i⟩
      unfold Value.step2
      exact point_step m c n hn acc p q)
    55 le_rfl h (ix2 p q)

/-- THE KERNEL'S RESULT at entry (p, q): the inner product, over all 150528 columns, of row `p` of the first operand
    as the region finds it with row `q` of the second. -/
theorem result_apply (c : Dev nD) (p : Fin 256) (q : Fin 1000) :
    (Value.G2 m c : S256x1000.Idx → EReal) (ix2 p q)
      = ∑ k : Fin 150528, left m c (ix2 p k) * right m c (ix2 q k) := by
  have hN : cfg0.N = 56 := N_0
  have hr : Value.run2Of (ix2 p q) = 0 := by
    show 1 * (p.val / 256 - 0) + 1 * (q.val / 1000 - 0) = 0
    have h1 := p.isLt
    have h2 := q.isLt
    omega
  have hl : Value.loc2Of (ix2 p q) = ix2 p q := by
    funext a
    apply Fin.ext
    match a with
    | ⟨0, _⟩ => show p.val % 256 = p.val; have h1 := p.isLt; omega
    | ⟨1, _⟩ => show q.val % 1000 = q.val; have h2 := q.isLt; omega
  have hpos : 56 * Value.run2Of (ix2 p q) + 55 < cfg0.N := by
    rw [hr, hN]
    omega
  have key : ∀ (b : ℕ) (hb : b + 55 < cfg0.N), b = 0 →
      Pipeline.accAt (Value.reset2 m c) (Value.step2 m c) b 55 hb (ix2 p q)
        = ∑ k : Fin 150528, left m c (ix2 p k) * right m c (ix2 q k) := by
    intro b hb e
    subst e
    exact (fold_apply m c hb p q).trans (Cert.BlockedSum.inner_eq_blocks (left m c) (right m c) p q).symm
  unfold Value.G2
  rw [dif_pos hpos]
  exact (congrArg (Pipeline.accAt (Value.reset2 m c) (Value.step2 m c) (56 * Value.run2Of (ix2 p q)) 55 hpos) hl).trans
    (key _ hpos (by rw [hr]))

end Cert.KernelIdeal.KernelSum

end
-- ==== Proof.RefSum.lean ====
/-
  What the reference computes: at entry (p, q), the inner product over all 150528 columns of row `p` of the first
  argument reshaped to 256 rows with row `q` of the second argument reshaped to 1000 rows.
-/
import proofs.«141762_j59270548685016_2_alg».proof.Proof.Gen.ReferenceIdeal.Read
import Idealize.ShloMosaic.Lib.ValueIdx
import Idealize.ShloMosaic.PureOps.Ideal.Laws

noncomputable section

namespace Cert.ReferenceIdeal.RefSum

open Cert.ReferenceIdeal Cert.ReferenceIdeal.Gen Idealize.ShloMosaic Idealize.ShloMosaic.TcCoe Idealize.SL.Sem
open Idealize.ShloMosaic.ValueIdx

/-- THE REFERENCE'S RESULT at entry (p, q): the contraction of the two reshaped arguments over their column axis. -/
theorem result_apply (x0 : (⟨S256x3x224x224, .f32⟩ : BufTy).Contents (Elt Ideal))
    (x1 : (⟨S1000x3x224x224, .f32⟩ : BufTy).Contents (Elt Ideal)) (p : Fin 256) (q : Fin 1000) :
    Read.val_main_v2 (F := Ideal) x0 x1 (ix2 p q)
      = ∑ k : Fin 150528, Read.val_main_v0 (F := Ideal) x0 (ix2 p k) * Read.val_main_v1 (F := Ideal) x1 (ix2 q k) := by
  rw [Read.val_main_v2_apply]
  refine Finset.sum_congr rfl fun k _ => ?_
  have el : Read.lidx_main_v2 (ix2 p q) k = ix2 p k :=
    funext fun a => Fin.ext (by match a with | ⟨0, _⟩ => rfl | ⟨1, _⟩ => rfl)
  have er : Read.ridx_main_v2 (ix2 p q) k = ix2 q k :=
    funext fun a => Fin.ext (by match a with | ⟨0, _⟩ => rfl | ⟨1, _⟩ => rfl)
  rw [el, er]

end Cert.ReferenceIdeal.RefSum

end
-- ==== Proof.SameResult.lean ====
/-
  The two programs compute one function of the arguments.

  Both reshape each argument to rows of 150528 columns. The reference contracts the two reshaped arrays over the
  column axis in one step; the kernel accumulates the same contraction over 56 blocks of 2688 columns. Entry by entry
  both are the inner product of a row of the first with a row of the second, so the two result arrays are equal on
  the extended reals, with no condition on the entries.
-/
import proofs.«141762_j59270548685016_2_alg».proof.Proof.KernelSum
import proofs.«141762_j59270548685016_2_alg».proof.Proof.RefSum

noncomputable section

namespace Cert.SameResult

open Idealize.ShloMosaic Idealize.ShloMosaic.TcCoe Idealize.SL.Sem Idealize.ShloMosaic.ValueIdx

/-- The reference's result array, on the kernel's arguments, is the array the kernel's run leaves. -/
theorem same_result
    (m : (ℓ : Loc Cert.KernelIdeal.nD Cert.KernelIdeal.τ Cert.KernelIdeal.sig) → Buf (Elt Ideal) ℓ)
    (c : Dev Cert.KernelIdeal.nD) :
    Cert.ReferenceIdeal.Read.val_main_v2 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.G2 m c := by
  funext i
  obtain ⟨p, q, rfl⟩ : ∃ (p : Fin 256) (q : Fin 1000), i = ix2 p q := ⟨i 0, i 1, eq_ix2 i⟩
  rw [Cert.ReferenceIdeal.RefSum.result_apply, Cert.KernelIdeal.KernelSum.result_apply,
    Cert.KernelIdeal.KernelSum.left_eq, Cert.KernelIdeal.KernelSum.right_eq]
  rfl

end Cert.SameResult

end
-- ==== Proof.lean ====
/-
  The kernel multiplies a [256, 150528] array by the transpose of a [1000, 150528] array, accumulating over 56 blocks
  of 2688 columns into an output block that stays in place; the reference contracts the same two arrays in one step.
  On the extended reals the two results are the same inner products, entry by entry (Proof/SameResult.lean), since
  cutting a finite sum into consecutive blocks uses only commutativity and associativity of addition. The kernel's
  idealization rewrites nothing, so it preserves the kernel trivially; each program's frame is its run with the
  result dropped.
-/
import proofs.«141762_j59270548685016_2_alg».proof.Defs
import proofs.«141762_j59270548685016_2_alg».proof.Proof.Gen.Kernel.Frame
import proofs.«141762_j59270548685016_2_alg».proof.Proof.Gen.KernelIdeal.Value
import proofs.«141762_j59270548685016_2_alg».proof.Proof.Gen.Pre_finite_inputs
import proofs.«141762_j59270548685016_2_alg».proof.Proof.Gen.ReferenceIdeal.Run
import proofs.«141762_j59270548685016_2_alg».proof.Proof.Gen.ReferenceIdeal.Read
import proofs.«141762_j59270548685016_2_alg».proof.Proof.SameResult
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the two arguments, the kernel's output array and the reference's result are the same
    array of inner products. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq]
  exact Cert.SameResult.same_result m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
